-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x100000 : Shape := ⟨2, ![1024, 100000]⟩
abbrev S100000 : Shape := ⟨1, ![100000]⟩
abbrev S_ : Shape := ⟨0, ![]⟩

class Facts : Prop where
  bcast_S_S1024x100000 : S_.BroadcastsInDim S1024x100000 (![] : Fin 0 → Fin S1024x100000.rank)
  reducesTo_S1024x100000_S_d0_1 : S1024x100000.ReducesTo [0, 1] S_
  h_S_ : 0 < S_.numel
  bcast_S_S100000 : S_.BroadcastsInDim S100000 (![] : Fin 0 → Fin S100000.rank)
  reducesTo_S100000_S_d0 : S100000.ReducesTo [0] S_

variable [Facts]

def fn {F : FTy → Type} [FloatOps F] (main_arg0 : FVec F S1024x100000 .f32) (main_arg1 : FVec F S100000 .f32) : IVec S_ 1 :=
  let main_v0 : FVec F S1024x100000 .f32 := Host.absf main_arg0
  let main_cst : FVec F S_ .f32 := constant S_ .f32 0x7F800000#32
  let main_v1 : FVec F S1024x100000 .f32 := broadcastInDim S1024x100000 ![] bcast_S_S1024x100000 main_cst
  let main_v2 : IVec S1024x100000 1 := cmpf .olt main_v0 main_v1
  let main_c : IVec S_ 1 := constantI S_ 1 1#1
  let main_v3 : IVec S_ 1 := (fun x v => Host.reduce IntOp.andi x v reducesTo_S1024x100000_S_d0_1 h_S_) main_v2 main_c
  let main_v4 : FVec F S100000 .f32 := Host.absf main_arg1
  let main_cst_0 : FVec F S_ .f32 := constant S_ .f32 0x7F800000#32
  let main_v5 : FVec F S100000 .f32 := broadcastInDim S100000 ![] bcast_S_S100000 main_cst_0
  let main_v6 : IVec S100000 1 := cmpf .olt main_v4 main_v5
  let main_c_1 : IVec S_ 1 := constantI S_ 1 1#1
  let main_v7 : IVec S_ 1 := (fun x v => Host.reduce IntOp.andi x v reducesTo_S100000_S_d0 h_S_) main_v6 main_c_1
  let main_v8 : IVec S_ 1 := andi main_v3 main_v7
  main_v8
-- ==== Kernel.lean ====
abbrev S1024x100000 : Shape := ⟨2, ![1024, 100000]⟩
abbrev S100000 : Shape := ⟨1, ![100000]⟩
abbrev S1x100000 : Shape := ⟨2, ![1, 100000]⟩
abbrev S8x100000 : Shape := ⟨2, ![8, 100000]⟩
abbrev S8 : Shape := ⟨1, ![8]⟩
abbrev S8x1 : Shape := ⟨2, ![8, 1]⟩

abbrev nBuf : Space → Nat
  | .hbm => 4
  | .vmem => 5
  | .smem => 0
  | _ => 0

abbrev bufTy : (tb : Table) → Fin (tcTables nBuf tb) → BufTy
  | .hbm, ⟨0, _⟩ => ⟨S1024x100000, .f32⟩
  | .hbm, ⟨1, _⟩ => ⟨S100000, .f32⟩
  | .hbm, ⟨2, _⟩ => ⟨S1x100000, .f32⟩
  | .hbm, ⟨3, _⟩ => ⟨S1024x100000, .f32⟩
  | .local _ .vmem, ⟨0, _⟩ => ⟨S8x100000, .f32⟩
  | .local _ .vmem, ⟨1, _⟩ => ⟨S8x100000, .f32⟩
  | .local _ .vmem, ⟨2, _⟩ => ⟨S1x100000, .f32⟩
  | .local _ .vmem, ⟨3, _⟩ => ⟨S8x100000, .f32⟩
  | .local _ .vmem, ⟨4, _⟩ => ⟨S8x100000, .f32⟩
  | _, _ => ⟨S1024x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x100000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x100000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S100000_S1x100000 : S100000.ShapeCasts S1x100000
  inb_S8x100000_S8x100000_0_0 : ∀ a, (![0, 0] : Fin 2 → Nat) a + S8x100000.size a ≤ S8x100000.size a
  h_S8x100000 : 0 < S8x100000.numel
  inb_S1x100000_S1x100000_0_0 : ∀ a, (![0, 0] : Fin 2 → Nat) a + S1x100000.size a ≤ S1x100000.size a
  h_S1x100000 : 0 < S1x100000.numel
  shapeCasts_S1x100000_S1x100000 : S1x100000.ShapeCasts S1x100000
  broadcasts_S1x100000_S8x100000 : S1x100000.Broadcasts S8x100000
  reduces_S8x100000_S8 : S8x100000.Reduces [1] S8
  shapeCasts_S8_S8x1 : S8.ShapeCasts S8x1
  broadcasts_S8x1_S8x100000 : S8x1.Broadcasts S8x100000
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x100000.size a ≤ S1024x100000.size a
  hwx0_0 : ∀ i : grid0.Coords, EltTy.bits .f32 = 32 ∨ (Rect.block (s := S1024x100000) S8x100000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x100000.size a ≤ S1x100000.size a
  hwx0_1 : ∀ i : grid0.Coords, EltTy.bits .f32 = 32 ∨ (Rect.block (s := S1x100000) S1x100000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x100000.size a ≤ S1024x100000.size a
  hwx0_2 : ∀ i : grid0.Coords, EltTy.bits .f32 = 32 ∨ (Rect.block (s := S1024x100000) S8x100000.size (cc0_transform_2 i) (hinb0_2 i)).WholeWords (EltTy.packing .f32)

variable [Facts₀]

abbrev win0_0 : Pipeline.Window sig grid0 :=
  Pipeline.Window.ofSpec (Memref.whole main_arg0) S8x100000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x100000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x100000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x100000 : Shape := ⟨2, ![1024, 100000]⟩
abbrev S100000 : Shape := ⟨1, ![100000]⟩
abbrev S_ : Shape := ⟨0, ![]⟩
abbrev S1x100000 : Shape := ⟨2, ![1, 100000]⟩
abbrev S1024 : Shape := ⟨1, ![1024]⟩
abbrev S1024x1 : Shape := ⟨2, ![1024, 1]⟩

abbrev nBuf : Space → Nat
  | .hbm => 23
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S100000, .f32⟩
  | .hbm, ⟨2, _⟩ => ⟨S_, .f32⟩
  | .hbm, ⟨3, _⟩ => ⟨S1024x100000, .f32⟩
  | .hbm, ⟨4, _⟩ => ⟨S1024x100000, .i1⟩
  | .hbm, ⟨5, _⟩ => ⟨S1x100000, .f32⟩
  | .hbm, ⟨6, _⟩ => ⟨S1024x100000, .f32⟩
  | .hbm, ⟨7, _⟩ => ⟨S_, .f32⟩
  | .hbm, ⟨8, _⟩ => ⟨S_, .f32⟩
  | .hbm, ⟨9, _⟩ => ⟨S1024x100000, .f32⟩
  | .hbm, ⟨10, _⟩ => ⟨S1024x100000, .f32⟩
  | .hbm, ⟨11, _⟩ => ⟨S_, .f32⟩
  | .hbm, ⟨12, _⟩ => ⟨S1024, .f32⟩
  | .hbm, ⟨13, _⟩ => ⟨S1024x1, .f32⟩
  | .hbm, ⟨14, _⟩ => ⟨S_, .f32⟩
  | .hbm, ⟨15, _⟩ => ⟨S1024x1, .f32⟩
  | .hbm, ⟨16, _⟩ => ⟨S1024x1, .i1⟩
  | .hbm, ⟨17, _⟩ => ⟨S_, .f32⟩
  | .hbm, ⟨18, _⟩ => ⟨S_, .f32⟩
  | .hbm, ⟨19, _⟩ => ⟨S1024x1, .f32⟩
  | .hbm, ⟨20, _⟩ => ⟨S1024x1, .f32⟩
  | .hbm, ⟨21, _⟩ => ⟨S1024x100000, .f32⟩
  | .hbm, ⟨22, _⟩ => ⟨S1024x100000, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_call1_v0 : Ref sig .tc := ⟨.hbm, 18, rfl⟩
abbrev main_call1_v1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]

class Facts₀ : Prop where
  bcast_S_S1024x100000 : S_.BroadcastsInDim S1024x100000 (![] : Fin 0 → Fin S1024x100000.rank)
  bcast_S100000_S1x100000_1 : S100000.BroadcastsInDim S1x100000 (![1] : Fin 1 → Fin S1x100000.rank)
  bcast_S1x100000_S1024x100000_0_1 : S1x100000.BroadcastsInDim S1024x100000 (![0, 1] : Fin 2 → Fin S1024x100000.rank)
  reducesTo_S1024x100000_S1024_d1 : S1024x100000.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x100000_0_1 : S1024x1.BroadcastsInDim S1024x100000 (![0, 1] : Fin 2 → Fin S1024x100000.rank)

variable [Facts₀]

class Facts : Prop extends Facts₀ where

variable [Facts]
-- ==== Proof.RowNormalize.lean ====
/-
  The function both programs compute, and the two scalar laws that join them.

  Inputs: a mask matrix `x` of 1024 rows and 100000 columns, and a row `f` of 100000 entries.
  An entry of `f` is KEPT in row `b` at column `j` when `x b j ≠ 0`, and replaced by `0` otherwise; the row's
  SUM is the sum of its kept entries over all 100000 columns; the row is then SCALED by `1` when that sum is
  `0` and by the sum's inverse otherwise. All of it on the extended reals, where the inverse is total
  (`0⁻¹ = ⊤`, `(±∞)⁻¹ = 0`), so no entry needs to be finite for the statement to make sense.

  One program multiplies a kept entry by `1 / s`, guarded to `1` where `s = 0`; the other divides it by `s`,
  the divisor guarded to `1` where `s = 0`. Off zero the extended reals' quotient `a / s` is `a · s⁻¹` and
  `1 / s` is `1 · s⁻¹ = s⁻¹`; at `s = 0` both guards make the factor `1` (`a / 1 = a · 1⁻¹ = a · 1`). So both
  are `a · scale s` for every extended real `a` and `s`: no finiteness is used.
-/
import Idealize.ShloMosaic.PureOps.Ideal.Laws
import Idealize.ShloMosaic.Lib.ValueIdx
import Idealize.ShloMosaic.Lib.IdealHost

noncomputable section

open scoped BigOperators

namespace Cert.RowNormalize

open Idealize.ShloMosaic Idealize.ShloMosaic.ValueIdx

/-- The value `v` where the mask entry `a` is not zero, `0` where it is. -/
def keep (a v : EReal) : EReal := if a ≠ 0 then v else 0

/-- Row `b`, column `j` after masking: `f j` where `x b j ≠ 0`, else `0`. -/
def kept (x : (⟨2, ![1024, 100000]⟩ : Shape).Idx → EReal) (f : (⟨1, ![100000]⟩ : Shape).Idx → EReal)
    (b : Fin 1024) (j : Fin 100000) : EReal :=
  keep (x (ix2 b j)) (f (ix1 j))

/-- The sum of row `b`'s kept entries. -/
def rowSum (x : (⟨2, ![1024, 100000]⟩ : Shape).Idx → EReal) (f : (⟨1, ![100000]⟩ : Shape).Idx → EReal)
    (b : Fin 1024) : EReal :=
  ∑ j : Fin 100000, kept x f b j

/-- The factor a row with sum `s` is multiplied by: `1` for an empty row (`s = 0`), else `s⁻¹`. -/
def scale (s : EReal) : EReal := if s = 0 then 1 else s⁻¹

/-- The normalized, masked matrix: each kept entry times its row's factor. -/
def normalized (x : (⟨2, ![1024, 100000]⟩ : Shape).Idx → EReal) (f : (⟨1, ![100000]⟩ : Shape).Idx → EReal) :
    (⟨2, ![1024, 100000]⟩ : Shape).Idx → EReal :=
  fun i => kept x f (i 0) (i 1) * scale (rowSum x f (i 0))

/-- At the index with coordinates `b`, `j`. -/
theorem normalized_ix2 (x : (⟨2, ![1024, 100000]⟩ : Shape).Idx → EReal) (f : (⟨1, ![100000]⟩ : Shape).Idx → EReal)
    (b : Fin 1024) (j : Fin 100000) :
    normalized x f (ix2 b j) = kept x f b j * scale (rowSum x f b) := rfl

/-- A select on "`a` differs from the zero word's value" between `v` and that zero is `keep a v`. The
    comparison is the linear order's: its unordered form is the same function (nothing is unordered). -/
theorem select_ne_zero (a v : EReal) :
    Scalar.select (Ideal.cmp .one a (Ideal.ofBits .f32 0x00000000#32)) v (Ideal.ofBits .f32 0x00000000#32) = keep a v := by
  simp only [Scalar.select, Ideal.cmp, keep, Ideal.ofBits_zero_f32]
  by_cases h : a = 0 <;> simp [h]

/-- The same with the unordered comparison, which on the extended reals is the ordered one. -/
theorem select_une_zero (a v : EReal) :
    Scalar.select (Ideal.cmp .une a (Ideal.ofBits .f32 0x00000000#32)) v (Ideal.ofBits .f32 0x00000000#32) = keep a v :=
  select_ne_zero a v

/-- Multiplying by the guarded reciprocal `1 / s` (the factor `1` where `s = 0`) is multiplying by `scale s`:
    off zero `1 / s = 1 · s⁻¹`. -/
theorem mul_guarded_reciprocal (a s : EReal) :
    a * Scalar.select (Ideal.cmp .oeq s (Ideal.ofBits .f32 0x00000000#32)) (Ideal.ofBits .f32 0x3F800000#32)
        (Ideal.div (Ideal.ofBits .f32 0x3F800000#32) s) = a * scale s := by
  simp only [Scalar.select, Ideal.cmp, scale, Ideal.ofBits_zero_f32, Ideal.ofBits_one_f32, Ideal.div]
  by_cases h : s = 0 <;> simp [h]

/-- Dividing by the guarded sum (the divisor `1` where `s = 0`) is multiplying by `scale s`: off zero
    `a / s = a · s⁻¹`, and `a / 1 = a · 1⁻¹ = a · 1`. -/
theorem div_guarded_sum (a s : EReal) :
    Ideal.div a (Scalar.select (Ideal.cmp .oeq s (Ideal.ofBits .f32 0x00000000#32)) (Ideal.ofBits .f32 0x3F800000#32) s)
      = a * scale s := by
  simp only [Scalar.select, Ideal.cmp, scale, Ideal.ofBits_zero_f32, Ideal.ofBits_one_f32, Ideal.div]
  by_cases h : s = 0 <;> simp [h]

end Cert.RowNormalize

end
-- ==== Proof.ReferenceValue.lean ====
/-
  The reference, read at an index, is the normalized masked matrix.

  The reference broadcasts `f` along the rows, selects it where `x ≠ 0` (zero elsewhere), sums each row over
  its 100000 columns from the initial value `0`, replaces a zero sum by `1`, and divides every masked entry by
  its row's guarded sum. Read one stage at a time at the index with coordinates `(b, j)`: the masked entry is
  `kept x f b j`; the row sum is `0 + ∑ j, kept x f b j`; the quotient by the guarded sum is the product with
  `scale` of the row sum (`div_guarded_sum`).
-/
import proofs.«131086_g30528627540481_cont_9to1_2295_2_alg».proof.Proof.Gen.ReferenceIdeal.Read
import proofs.«131086_g30528627540481_cont_9to1_2295_2_alg».proof.Proof.RowNormalize

noncomputable section

open scoped BigOperators

namespace Cert.ReferenceIdeal.RefValue

open Cert.ReferenceIdeal Cert.ReferenceIdeal.Gen Cert.ReferenceIdeal.Read Cert.RowNormalize
open Idealize.ShloMosaic Idealize.ShloMosaic.ValueIdx

variable (x : (⟨S1024x100000, .f32⟩ : BufTy).Contents (Elt Ideal)) (f : (⟨S100000, .f32⟩ : BufTy).Contents (Elt Ideal))

/-- The masked stage at `(b, j)`: `f j` where `x b j ≠ 0`, else `0` — the row broadcast of `f` read back at column `j`. -/
theorem masked_at (b : Fin 1024) (j : Fin 100000) : val_main_v4 (F := Ideal) x f (ix2 b j) = kept x f b j := by
  have e : idx_main_v2 (idx_main_v3 (ix2 b j)) = ix1 j :=
    funext fun a => Fin.ext (by match a with | ⟨0, _⟩ => rfl)
  rw [val_main_v4_apply, val_main_v1_apply, val_main_v0_apply, val_main_cst_apply, val_main_v3_apply, val_main_v2_apply,
    val_main_call0_v1_apply, val_main_call0_v0_apply, val_main_cst_0_apply, e]
  exact select_une_zero (x (ix2 b j)) (f (ix1 j))

/-- The row-sum stage at `b`: the initial value `0` plus the sum over the columns of the masked stage. -/
theorem sum_at (b : Fin 1024) : val_main_v5 (F := Ideal) x f (ix1 b) = rowSum x f b := by
  rw [val_main_v5_apply, val_main_cst_1_apply]
  show Ideal.ofBits .f32 0x00000000#32 + _ = _
  rw [Ideal.ofBits_zero_f32, zero_add]
  refine Finset.sum_congr rfl fun k _ => ?_
  have e : idx_main_v5 (ix1 b) k = ix2 b k :=
    funext fun a => Fin.ext (by match a with | ⟨0, _⟩ => rfl | ⟨1, _⟩ => rfl)
  rw [e]
  exact masked_at x f b k

/-- The reference's result is the normalized masked matrix. -/
theorem result_eq : val_main_v11 (F := Ideal) x f = normalized x f := by
  funext i
  obtain ⟨b, j, rfl⟩ : ∃ (b : Fin 1024) (j : Fin 100000), i = ix2 b j := ⟨i 0, i 1, eq_ix2 i⟩
  have e : idx_main_v6 (idx_main_v10 (ix2 b j)) = ix1 b :=
    funext fun a => Fin.ext (by match a with | ⟨0, _⟩ => rfl)
  rw [val_main_v11_apply, val_main_v10_apply, val_main_v9_apply, val_main_v8_apply, val_main_v6_apply,
    val_main_v7_apply, val_main_cst_2_apply, val_main_call1_v1_apply, val_main_call1_v0_apply, val_main_cst_3_apply,
    e, sum_at, masked_at, normalized_ix2]
  exact div_guarded_sum (kept x f b j) (rowSum x f b)

end Cert.ReferenceIdeal.RefValue

end
-- ==== Proof.BlockValue.lean ====
/-
  One block of the kernel's output, read at an index.

  At a grid point the body holds a block `P0` of eight rows of the mask and the one row `P1` of `f`. It keeps
  `P1` (broadcast along the eight rows) where `P0 ≠ 0`, sums each of the eight rows over its 100000 columns,
  forms the guarded reciprocal of each sum and multiplies the kept entries by it. Read at the block index with
  coordinates `(p, q)`: the kept entry is `keep (P0 p q) (P1 0 q)`; the lane sum of row `p` is the sum of the
  kept entries over the columns; the product with the guarded reciprocal is the product with `scale` of that
  sum (`mul_guarded_reciprocal`). When `P0` is rows `row 0 … row 7` of a matrix `x` and `P1` is `f`, this is the
  normalized masked matrix at `(row p, q)`.
-/
import proofs.«131086_g30528627540481_cont_9to1_2295_2_alg».proof.Proof.Gen.KernelIdeal.Value
import proofs.«131086_g30528627540481_cont_9to1_2295_2_alg».proof.Proof.RowNormalize

noncomputable section

open scoped BigOperators

namespace Cert.KernelIdeal.BlockValue

open Cert.KernelIdeal Cert.KernelIdeal.Gen Cert.RowNormalize
open Idealize.ShloMosaic Idealize.ShloMosaic.ValueIdx

/-- The kept block as the body computes it: the row `P1` broadcast along the rows, selected where `P0 ≠ 0`. -/
def keptBlock (P0 : Vec Ideal S8x100000 .f32) (P1 : Vec Ideal S1x100000 .f32) : FVec Ideal S8x100000 .f32 :=
  select (cmpf (F := Ideal) .one P0 (broadcast S8x100000 (Scalar.ofBits (F := Ideal) .f32 0x00000000#32)))
    (broadcastTo S8x100000 (shapeCast S1x100000 (shapeCast S1x100000 P1 shapeCasts_S1x100000_S1x100000) shapeCasts_S1x100000_S1x100000) broadcasts_S1x100000_S8x100000)
    (broadcast S8x100000 (Scalar.ofBits (F := Ideal) .f32 0x00000000#32))

/-- The kept block at `(p, q)`: the broadcast row is `P1` at `(0, q)`. -/
theorem keptBlock_at (P0 : Vec Ideal S8x100000 .f32) (P1 : Vec Ideal S1x100000 .f32) (p : Fin 8) (q : Fin 100000) :
    keptBlock P0 P1 (ix2 p q) = keep (P0 (ix2 p q)) (P1 (ix2 (0 : Fin 1) q)) := by
  have eb : (broadcastTo S8x100000 (shapeCast S1x100000 (shapeCast S1x100000 P1 shapeCasts_S1x100000_S1x100000) shapeCasts_S1x100000_S1x100000) broadcasts_S1x100000_S8x100000) (ix2 p q)
      = P1 (ix2 (0 : Fin 1) q) := by
    rw [shapeCast_self, shapeCast_self]
    exact broadcastTo_apply P1 broadcasts_S1x100000_S8x100000 (ix2 p q) (ix2 (0 : Fin 1) q) (fun a => match a with
      | ⟨0, _⟩ => by show 0 = (if (1 : Nat) = 1 then 0 else p.val); rw [if_pos rfl]
      | ⟨1, _⟩ => by show q.val = (if (100000 : Nat) = 1 then 0 else q.val); rw [if_neg (by decide)])
  show Scalar.select (Ideal.cmp .one (P0 (ix2 p q)) (Ideal.ofBits .f32 0x00000000#32))
      ((broadcastTo S8x100000 (shapeCast S1x100000 (shapeCast S1x100000 P1 shapeCasts_S1x100000_S1x100000) shapeCasts_S1x100000_S1x100000) broadcasts_S1x100000_S8x100000) (ix2 p q))
      (Ideal.ofBits .f32 0x00000000#32) = _
  rw [eb]
  exact select_ne_zero _ _

/-- The eight lane sums of the kept block. -/
def laneSums (P0 : Vec Ideal S8x100000 .f32) (P1 : Vec Ideal S1x100000 .f32) : FVec Ideal S8 .f32 :=
  multiReduction .add [1] S8 (keptBlock P0 P1) 0x00000000#32 reduces_S8x100000_S8 (.inl rfl) rfl

/-- The lane sum of row `p` is the sum of the kept block's row `p` over its columns. -/
theorem laneSums_at (P0 : Vec Ideal S8x100000 .f32) (P1 : Vec Ideal S1x100000 .f32) (p : Fin 8) :
    laneSums P0 P1 (ix1 p) = ∑ k : Fin 100000, keptBlock P0 P1 (ix2 p k) := by
  refine (Ideal.multiReduction_add_single (keptBlock P0 P1) 0x00000000#32 reduces_S8x100000_S8 (.inl rfl) rfl (ix1 p)).trans ?_
  refine Finset.sum_congr rfl fun k _ => ?_
  exact congrArg (keptBlock P0 P1) (funext fun a => Fin.ext (by match a with | ⟨0, _⟩ => rfl | ⟨1, _⟩ => rfl))

/-- What the body leaves in the block, in terms of the kept block and its lane sums. -/
theorem block_eq (P0 : Vec Ideal S8x100000 .f32) (P1 : Vec Ideal S1x100000 .f32) (p : Fin 8) (q : Fin 100000) :
    Value.E2 P0 P1 (ix2 p q)
      = keptBlock P0 P1 (ix2 p q) * Scalar.select (Ideal.cmp .oeq (laneSums P0 P1 (ix1 p)) (Ideal.ofBits .f32 0x00000000#32))
          (Ideal.ofBits .f32 0x3F800000#32) (Ideal.div (Ideal.ofBits .f32 0x3F800000#32) (laneSums P0 P1 (ix1 p))) := by
  have e0 : Value.ix2_0 (ix2 p q) = ix2 p q := funext fun a => Fin.ext (by match a with | ⟨0, _⟩ => rfl | ⟨1, _⟩ => rfl)
  have e1 : Value.ix2_1 (ix2 p q) = ix2 (0 : Fin 1) q := funext fun a => Fin.ext (by match a with | ⟨0, _⟩ => rfl | ⟨1, _⟩ => rfl)
  have e2 : Value.ix2_2 (ix2 p q) = ix1 p := funext fun a => Fin.ext (by match a with | ⟨0, _⟩ => rfl)
  have e3 : Value.ix2_3 (ix2 p q) = ix1 p := funext fun a => Fin.ext (by match a with | ⟨0, _⟩ => rfl)
  show (Scalar.select (Ideal.cmp .one (P0 (Value.ix2_0 (ix2 p q))) (Ideal.ofBits .f32 0x00000000#32)) (P1 (Value.ix2_1 (ix2 p q))) (Ideal.ofBits .f32 0x00000000#32))
      * (Scalar.select (Ideal.cmp .oeq (laneSums P0 P1 (Value.ix2_2 (ix2 p q))) (Ideal.ofBits .f32 0x00000000#32)) (Ideal.ofBits .f32 0x3F800000#32)
          (Ideal.div (Ideal.ofBits .f32 0x3F800000#32) (laneSums P0 P1 (Value.ix2_3 (ix2 p q))))) = _
  rw [e0, e1, e2, e3, keptBlock_at, select_ne_zero]

/-- THE BLOCK: when `P0` holds rows `row 0 … row 7` of `x` and `P1` holds `f`, the body leaves the normalized masked
    matrix's rows `row 0 … row 7` in the block. -/
theorem block_at (P0 : Vec Ideal S8x100000 .f32) (P1 : Vec Ideal S1x100000 .f32)
    (x : (⟨2, ![1024, 100000]⟩ : Shape).Idx → EReal) (f : (⟨1, ![100000]⟩ : Shape).Idx → EReal) (row : Fin 8 → Fin 1024)
    (h0 : ∀ (p : Fin 8) (q : Fin 100000), P0 (ix2 p q) = x (ix2 (row p) q))
    (h1 : ∀ q : Fin 100000, P1 (ix2 (0 : Fin 1) q) = f (ix1 q)) (p : Fin 8) (q : Fin 100000) :
    Value.E2 P0 P1 (ix2 p q) = normalized x f (ix2 (row p) q) := by
  have hk : ∀ (r : Fin 8) (k : Fin 100000), keptBlock P0 P1 (ix2 r k) = kept x f (row r) k := fun r k => by
    rw [keptBlock_at, h0, h1]; rfl
  have hs : laneSums P0 P1 (ix1 p) = rowSum x f (row p) :=
    (laneSums_at P0 P1 p).trans (Finset.sum_congr rfl fun k _ => hk p k)
  rw [block_eq, hs, hk, normalized_ix2]
  exact mul_guarded_reciprocal _ _

end Cert.KernelIdeal.BlockValue

end
-- ==== Proof.ArrayValue.lean ====
/-
  From the blocks to the whole output array, and the kernel's run.

  The grid has 128 points; point `t` stages rows `8 t … 8 t + 7` of the mask (all 100000 columns), the whole
  one-row array holding `f` (the argument reshaped from [100000] to [1, 100000] before the call), and writes
  back rows `8 t … 8 t + 7` of the output. So what point `t` writes back is the block of rows `8 t … 8 t + 7` of
  the normalized masked matrix (`BlockValue.block_at`); row `r` of the output lies in the block of point
  `r / 8`, so the 128 blocks cover the array, and the array ends holding the normalized masked matrix.
-/
import proofs.«131086_g30528627540481_cont_9to1_2295_2_alg».proof.Proof.Gen.KernelIdeal.Value
import proofs.«131086_g30528627540481_cont_9to1_2295_2_alg».proof.Proof.BlockValue
import Idealize.ShloMosaic.Lib.StableHlo.Run

noncomputable section

namespace Cert.KernelIdeal.ArrayValue

open Cert.KernelIdeal Cert.KernelIdeal.Gen Cert.RowNormalize
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The block indices at point `t`: the mask's and the output's blocks are block-row `t`, the row of `f` is
    always its one block (decided over the 128 points). -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 128 := Nat.lt_of_lt_of_eq t.isLt N_0

/-- The array row that row `p` of point `t`'s block is: `8 t + p`. -/
def rowOf (t : Fin cfg0.N) (p : Fin 8) : Fin 1024 :=
  ⟨t.val * 8 + p.val, by have := point_lt t; have := p.isLt; omega⟩

theorem zeros : (![0, 0] : Fin 2 → Nat) = fun _ => 0 := funext fun a => by fin_cases a <;> rfl

/-- The mask's block at point `t`, at `(p, q)`, is the mask argument at row `8 t + p`, column `q`. -/
theorem maskBlock_at (c : Dev nD) (t : Fin cfg0.N) (p : Fin 8) (q : Fin 100000) :
    iblk m c 0 t (ix2 p q) = m ((c : Thread nD τ).loc main_arg0) (ix2 (rowOf t p) q) := by
  show V m c main_arg0 (((cfg0.win 0).blk t).view.emb (ix2 p q)) = _
  rw [V_main_arg0]
  refine congrArg (m ((c : Thread nD τ).loc main_arg0)) (funext fun a => Fin.ext ?_)
  obtain ⟨e0, e1, -, -, -, -⟩ := block_indices t
  match a with
  | ⟨0, _⟩ => show win0_0.index t (0 : Fin 2) * 8 + 1 * p.val = t.val * 8 + p.val; rw [e0]; omega
  | ⟨1, _⟩ => show win0_0.index t (1 : Fin 2) * 100000 + 1 * q.val = q.val; rw [e1]; omega

/-- The one-row array the region finds is the argument `f` reshaped. -/
theorem rowArray_eq (c : Dev nD) :
    (V m c main_v0 : S1x100000.Idx → EReal)
      = shapeCast S1x100000 (m ((c : Thread nD τ).loc main_arg1)) shapeCasts_S100000_S1x100000 := by
  dsimp only [Gen.V, Gen.hostOps0]; after_results; rfl

/-- The block of `f`'s row at any point, at `(0, q)`, is the argument `f` at `q`. -/
theorem rowBlock_at (c : Dev nD) (t : Fin cfg0.N) (q : Fin 100000) :
    iblk m c 1 t (ix2 (0 : Fin 1) q) = m ((c : Thread nD τ).loc main_arg1) (ix1 q) := by
  show V m c main_v0 (((cfg0.win 1).blk t).view.emb (ix2 (0 : Fin 1) q)) = _
  have ej : ((cfg0.win 1).blk t).view.emb (ix2 (0 : Fin 1) q) = ix2 (0 : Fin 1) q := by
    obtain ⟨-, -, e0, e1, -, -⟩ := block_indices t
    refine funext fun a => Fin.ext ?_
    match a with
    | ⟨0, _⟩ => show win0_1.index t (0 : Fin 2) * 1 + 1 * 0 = 0; rw [e0]
    | ⟨1, _⟩ => show win0_1.index t (1 : Fin 2) * 100000 + 1 * q.val = q.val; rw [e1]; omega
  rw [ej, rowArray_eq]
  exact shapeCast_apply _ shapeCasts_S100000_S1x100000 (ix2 (0 : Fin 1) q) (ix1 q)
    (by rw [Shape.rowMajor_val_one, Shape.rowMajor_val_two]; show q.val = 0 * 100000 + q.val; omega)

/-- WHAT POINT `t` WRITES BACK is block `t` of the normalized masked matrix of the two arguments. -/
theorem flushed_eq (c : Dev nD) (t : Fin cfg0.N) :
    (dats m 0 c).flushed 2 t = ((cfg0.win 2).blk t).view.read (Elt Ideal)
      (normalized (m ((c : Thread nD τ).loc main_arg0)) (m ((c : Thread nD τ).loc main_arg1))) := by
  rw [Value.flushed2]
  funext j
  obtain ⟨p, q, rfl⟩ : ∃ (p : Fin 8) (q : Fin 100000), j = ix2 p q := ⟨j 0, j 1, eq_ix2 j⟩
  show out0_2 (iblk m c 0 t) (iblk m c 1 t) (ix2 p q)
    = normalized (m ((c : Thread nD τ).loc main_arg0)) (m ((c : Thread nD τ).loc main_arg1)) (((cfg0.win 2).blk t).view.emb (ix2 p q))
  have ei : ((cfg0.win 2).blk t).view.emb (ix2 p q) = ix2 (rowOf t p) q := by
    obtain ⟨-, -, -, -, e0, e1⟩ := block_indices t
    refine funext fun a => Fin.ext ?_
    match a with
    | ⟨0, _⟩ => show win0_2.index t (0 : Fin 2) * 8 + 1 * p.val = t.val * 8 + p.val; rw [e0]; omega
    | ⟨1, _⟩ => show win0_2.index t (1 : Fin 2) * 100000 + 1 * q.val = q.val; rw [e1]; omega
  rw [ei]
  unfold out0_2
  simp only [View.ld_unit_zero (S := S8x100000) zeros, View.ld_unit_zero (S := S1x100000) zeros]
  rw [Value.canon2_eq]
  exact BlockValue.block_at (iblk m c 0 t) (iblk m c 1 t) _ _ (rowOf t) (maskBlock_at m c t) (rowBlock_at m c t) p q

/-- An index of the output array is in point `t`'s block iff each coordinate is in the block's range on its axis. -/
theorem mem_blk (t : Fin cfg0.N) (i : S1024x100000.Idx) :
    i ∈ ((cfg0.win 2).blk t).view.set ↔ ∀ a : Fin 2, win0_2.index t a * S8x100000.size a ≤ (i a).val ∧ (i a).val < win0_2.index t a * S8x100000.size a + S8x100000.size a := by
  show i ∈ ((View.whole main_v1).slice (win0_2.rect t)).set ↔ _
  rw [View.set_slice_whole, Rect.mem_set_unit]
  exact Iff.rfl

/-- Every index of the output array is in some point's block: row `r` in that of point `r / 8`. -/
theorem cover (i : S1024x100000.Idx) :
    ∃ t : Fin cfg0.N, (cfg0.win 2).flush t = true ∧ i ∈ ((cfg0.win 2).blk t).view.set := by
  have hi0 : (i 0).val < 1024 := (i 0).isLt
  have hi1 : (i 1).val < 100000 := (i 1).isLt
  obtain ⟨t, ht⟩ : ∃ t : Fin cfg0.N, t.val = (i 0).val / 8 :=
    ⟨⟨(i 0).val / 8, by rw [show cfg0.N = 128 from N_0]; omega⟩, rfl⟩
  obtain ⟨-, -, -, -, e0, e1⟩ := block_indices t
  refine ⟨t, flush0_2 t, ?_⟩
  rw [mem_blk]
  intro a
  match a with
  | ⟨0, _⟩ =>
    show win0_2.index t (0 : Fin 2) * 8 ≤ (i 0).val ∧ (i 0).val < win0_2.index t (0 : Fin 2) * 8 + 8
    rw [e0, ht]; omega
  | ⟨1, _⟩ =>
    show win0_2.index t (1 : Fin 2) * 100000 ≤ (i 1).val ∧ (i 1).val < win0_2.index t (1 : Fin 2) * 100000 + 100000
    rw [e1]; omega

/-- THE OUTPUT ARRAY after the run is the normalized masked matrix of the two arguments. -/
theorem final (c : Dev nD) :
    (dats m 0 c).arrAt 2 cfg0.N = normalized (m ((c : Thread nD τ).loc main_arg0)) (m ((c : Thread nD τ).loc main_arg1)) :=
  (dats m 0 c).arrAt_eq_of_cover 2 _ (fun t _ => flushed_eq m c t) cover

/-- The kernel's run: every weakly fair execution terminates with the result array at the normalized masked matrix
    of the arguments, the arguments unchanged. -/
theorem run : θ_run defs (onTc (τ := τ) (main (F := Ideal))) ⟨m, fun _ => 0, ρ⟩ fun r => ∀ c : Dev nD,
      r.2.mem ((c : Thread nD τ).loc main_v1)
        = normalized (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrayValue

end
-- ==== Proof.lean ====
/-
  Masked row normalization: the kernel against its reference, on the extended reals.

  Both programs take a mask matrix `x` (1024 × 100000) and a row `f` (100000). An entry `f j` is kept in row `b`
  where `x b j ≠ 0` and replaced by `0` elsewhere; each row is then divided by the sum of its kept entries, a row
  whose sum is `0` being left as it is. The kernel does this eight rows at a time (128 grid points), forming the
  reciprocal `1 / s` of each row sum once (`1` where `s = 0`) and multiplying; the reference divides every entry
  by the row sum (`1` where `s = 0`).

  On the extended reals both are `kept x f b j · scale (rowSum x f b)` (Proof/RowNormalize.lean): off zero the
  quotient `a / s` is `a · s⁻¹` and `1 / s` is `s⁻¹`; at `s = 0` both guards give the factor `1`; the kernel's ordered
  and the reference's unordered "not equal" are the same comparison; a lane sum and a host sum of the same
  entries are the same sum. None of these steps needs an entry to be finite, so the precondition is not opened.

  The reference's stages read at an index give that function (Proof/ReferenceValue.lean); one block of the
  kernel's output is eight rows of it (Proof/BlockValue.lean); the 128 blocks cover the output array, which
  therefore ends holding it (Proof/ArrayValue.lean). The three frames are the programs' runs with the result
  dropped; the idealization rewrote nothing, so there is nothing to preserve.
-/
import proofs.«131086_g30528627540481_cont_9to1_2295_2_alg».proof.Defs
import proofs.«131086_g30528627540481_cont_9to1_2295_2_alg».proof.Proof.Gen.Kernel
import proofs.«131086_g30528627540481_cont_9to1_2295_2_alg».proof.Proof.Gen.Kernel.Skeleton
import proofs.«131086_g30528627540481_cont_9to1_2295_2_alg».proof.Proof.Gen.Kernel.Launch
import proofs.«131086_g30528627540481_cont_9to1_2295_2_alg».proof.Proof.Gen.Kernel.Points
import proofs.«131086_g30528627540481_cont_9to1_2295_2_alg».proof.Proof.Gen.Kernel.Frame
import proofs.«131086_g30528627540481_cont_9to1_2295_2_alg».proof.Proof.Gen.KernelIdeal
import proofs.«131086_g30528627540481_cont_9to1_2295_2_alg».proof.Proof.Gen.KernelIdeal.Skeleton
import proofs.«131086_g30528627540481_cont_9to1_2295_2_alg».proof.Proof.Gen.KernelIdeal.Launch
import proofs.«131086_g30528627540481_cont_9to1_2295_2_alg».proof.Proof.Gen.KernelIdeal.Points
import proofs.«131086_g30528627540481_cont_9to1_2295_2_alg».proof.Proof.Gen.KernelIdeal.Frame
import proofs.«131086_g30528627540481_cont_9to1_2295_2_alg».proof.Proof.Gen.ReferenceIdeal
import proofs.«131086_g30528627540481_cont_9to1_2295_2_alg».proof.Proof.Gen.Pre_finite_inputs
import proofs.«131086_g30528627540481_cont_9to1_2295_2_alg».proof.Proof.Gen.KernelIdeal.Value
import proofs.«131086_g30528627540481_cont_9to1_2295_2_alg».proof.Proof.Gen.ReferenceIdeal.Run
import proofs.«131086_g30528627540481_cont_9to1_2295_2_alg».proof.Proof.Gen.ReferenceIdeal.Read
import proofs.«131086_g30528627540481_cont_9to1_2295_2_alg».proof.Proof.ReferenceValue
import proofs.«131086_g30528627540481_cont_9to1_2295_2_alg».proof.Proof.ArrayValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the normalized masked matrix of those
    arguments in their result arrays. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
